-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) (main_arg2 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S512x1 : Shape := ⟨2, ![512, 1]⟩
abbrev S512x8192 : Shape := ⟨2, ![512, 8192]⟩
abbrev S512 : Shape := ⟨1, ![512]⟩
abbrev S_ : Shape := ⟨0, ![]⟩

abbrev nBuf : Space → Nat
  | .hbm => 20
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S8192x1, .i32⟩
  | .hbm, ⟨5, _⟩ => ⟨S1x8192, .i32⟩
  | .hbm, ⟨6, _⟩ => ⟨S1x8192, .f32⟩
  | .hbm, ⟨7, _⟩ => ⟨S8192x1, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i32⟩
  | .hbm, ⟨17, _⟩ => ⟨S_, .i32⟩
  | .hbm, ⟨18, _⟩ => ⟨S_, .f32⟩
  | .hbm, ⟨19, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S1x8192, .i32⟩
  | .local _ .vmem, ⟨3, _⟩ => ⟨S1x8192, .f32⟩
  | .local _ .vmem, ⟨4, _⟩ => ⟨S512x1, .f32⟩
  | .local _ .vmem, ⟨5, _⟩ => ⟨S512x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S512x8192 : S1x8192.Broadcasts S512x8192
  broadcasts_S512x1_S512x8192 : S512x1.Broadcasts S512x8192
  reduces_S512x8192_S512 : S512x8192.Reduces [1] S512
  shapeCasts_S512_S512x1 : S512.ShapeCasts S512x1
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .i32 = 32 ∨ (Rect.block (s := S8192x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

abbrev win0_0 : Pipeline.Window sig grid0 :=
  Pipeline.Window.ofSpec (Memref.whole main_v1) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S1x8192, .i32⟩
  | .hbm, ⟨5, _⟩ => ⟨S8192x1, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S1x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_

variable [Facts₀]

class Facts : Prop extends Facts₀ where

variable [Facts]
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Blocks.lean ====
/-
  What the kernel's three input blocks hold at grid point `t` (16 points, 512 rows each).

  Before the region the host writes three arrays: the observed times as a column [8192, 1] and as a row [1, 8192],
  and the exponentials `exp (risk k)` as a row [1, 8192]. A reshape keeps row-major positions, so the column at
  `(r, 0)` and the row at `(0, k)` read `time r` and `time k`, and the third array at `(0, k)` reads `exp (risk k)`.
  The column window's block at point `t` is rows `512 t … 512 t + 511`; the two row windows' block is the whole row
  at every point. So the blocks read: `time (512 t + p)` at `(p, 0)`, `time k` and `exp (risk k)` at `(0, k)`.
-/
import proofs.«102499_j55379308315381_1_alg».proof.Proof.Gen.KernelIdeal.Frame
import proofs.«102499_j55379308315381_1_alg».proof.Proof.LibColumn
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx Cert.Column

variable (m : (ℓ : Loc nD τ sig) → Buf (Elt Ideal) ℓ)

/-! ## The arrays the host writes before the region -/

/-- The time column is the times reshaped to [8192, 1]. -/
theorem V_col (c : Dev nD) : (V m c main_v1 : S8192x1.Idx → BitVec 32)
    = shapeCast S8192x1 (m ((c : Thread nD τ).loc main_arg2)) shapeCasts_S8192_S8192x1 := by
  show StableHlo.after hostOps0 (fun b => m (c, b)) (Proc.devRef .tc main_v1) = _
  after_results
  rfl

/-- The time row is the times reshaped to [1, 8192]. -/
theorem V_row (c : Dev nD) : (V m c main_v2 : S1x8192.Idx → BitVec 32)
    = shapeCast S1x8192 (m ((c : Thread nD τ).loc main_arg2)) shapeCasts_S8192_S1x8192 := by
  show StableHlo.after hostOps0 (fun b => m (c, b)) (Proc.devRef .tc main_v2) = _
  after_results
  rfl

/-- The row of exponentials is `exp` of the risks, reshaped to [1, 8192]. -/
theorem V_exp (c : Dev nD) : (V m c main_v3 : S1x8192.Idx → EReal)
    = shapeCast S1x8192 (Host.exp (F := Ideal) (s := S8192) (φ := .f32) (m ((c : Thread nD τ).loc main_arg0)))
        shapeCasts_S8192_S1x8192 := by
  show StableHlo.after hostOps0 (fun b => m (c, b)) (Proc.devRef .tc main_v3) = _
  after_results
  rfl

/-! ## The windows' block indices, decided once over the sixteen points -/

/-- The column windows (input 0, output 3) are at block `t` on the row axis; the row windows (inputs 1, 2) stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks, read -/

/-- Row `p` of the time column's block at point `t` is the time of subject `512 t + p`. -/
theorem iblk_col (c : Dev nD) (t : Fin cfg0.N) (p : Fin 512) (r : Fin 8192) (hr : r.val = t.val * 512 + p.val) :
    iblk m c 0 t (ix2 p (0 : Fin 1)) = m ((c : Thread nD τ).loc main_arg2) (ix1 r) := by
  unfold iblk
  rw [View.read_apply]
  show V m c main_v1 _ = _
  rw [V_col]
  refine shapeCast_apply _ _ _ (ix1 r) ?_
  obtain ⟨e0, e1, -⟩ := idx_facts t
  rw [Shape.rowMajor_val_two, Shape.rowMajor_val_one]
  show r.val = (win0_0.index t (0 : Fin 2) * 512 + 1 * p.val) * 1 + (win0_0.index t (1 : Fin 2) * 1 + 1 * 0)
  rw [e0, e1, hr]
  omega

/-- Column `k` of the time row's block, at any point, is the time of subject `k`. -/
theorem iblk_row (c : Dev nD) (t : Fin cfg0.N) (k : Fin 8192) :
    iblk m c 1 t (ix2 (0 : Fin 1) k) = m ((c : Thread nD τ).loc main_arg2) (ix1 k) := by
  unfold iblk
  rw [View.read_apply]
  show V m c main_v2 _ = _
  rw [V_row]
  refine shapeCast_apply _ _ _ (ix1 k) ?_
  obtain ⟨-, -, e0, e1, -⟩ := idx_facts t
  rw [Shape.rowMajor_val_two, Shape.rowMajor_val_one]
  show k.val = (win0_1.index t (0 : Fin 2) * 1 + 1 * 0) * 8192 + (win0_1.index t (1 : Fin 2) * 8192 + 1 * k.val)
  rw [e0, e1]
  omega

/-- Column `k` of the exponentials' block, at any point, is `exp` of subject `k`'s risk. -/
theorem iblk_exp (c : Dev nD) (t : Fin cfg0.N) (k : Fin 8192) :
    iblk m c 2 t (ix2 (0 : Fin 1) k)
      = FloatOps.hostUnary (F := Ideal) (φ := .f32) .exp (m ((c : Thread nD τ).loc main_arg0) (ix1 k)) := by
  unfold iblk
  rw [View.read_apply]
  show V m c main_v3 _ = _
  rw [V_exp]
  refine (shapeCast_apply _ _ _ (ix1 k) ?_).trans rfl
  obtain ⟨-, -, -, -, e0, e1, -⟩ := idx_facts t
  rw [Shape.rowMajor_val_two, Shape.rowMajor_val_one]
  show k.val = (win0_2.index t (0 : Fin 2) * 1 + 1 * 0) * 8192 + (win0_2.index t (1 : Fin 2) * 8192 + 1 * k.val)
  rw [e0, e1]
  omega

end Cert.KernelIdeal.Hand

end
-- ==== Proof.Payload.lean ====
/-
  What the kernel body writes into row `p` of its output block, from its three loaded blocks: the time column `x0`
  (512 rows), the time row `x1` and the row of exponentials `x2` (8192 columns each).

  The body compares the row broadcast down the 512 rows with the column broadcast across the 8192 columns, selects the
  exponential or the zero word entry by entry, and sums each row along its 8192 columns into a zero accumulator.
  Read at row `p`: a broadcast only repeats, so entry `(p, k)` compares `x1 (0, k)` with `x0 (p, 0)` and selects
  `x2 (0, k)`; the lane sum at the extended reals is the plain finite sum over `k`; the final cast to a column keeps row `p`.
-/
import proofs.«102499_j55379308315381_1_alg».proof.Proof.Gen.KernelIdeal.Skeleton
import proofs.«102499_j55379308315381_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Cert.Column

/-- Row `p` of the body's stored block is the sum over the 8192 columns `k` of the select, on
    `x1 (0, k) ≥ x0 (p, 0)`, between `x2 (0, k)` and the zero word. -/
theorem pay_apply (x0 : Vec Ideal S512x1 .i32) (x1 : Vec Ideal S1x8192 .i32) (x2 : Vec Ideal S1x8192 .f32)
    (p : Fin 512) (q : Fin 1) :
    k0_pay1 (F := Ideal) x0 x1 x2 (ix2 p q)
      = ∑ k : Fin 8192, Scalar.select (IntOp.cmpi .sge (x1 (ix2 (0 : Fin 1) k)) (x0 (ix2 p (0 : Fin 1))))
          (x2 (ix2 (0 : Fin 1) k)) (Ideal.ofBits .f32 0x00000000#32) := by
  unfold k0_pay1
  refine (shapeCast_a_a1_apply _ shapeCasts_S512_S512x1 p q).trans ?_
  refine (Ideal.multiReduction_add_single _ 0x00000000#32 reduces_S512x8192_S512 (.inl rfl) rfl (ix1 p)).trans ?_
  refine Finset.sum_congr rfl fun (k : Fin 8192) _ => ?_
  have hl : reduces_S512x8192_S512.lift (ix1 p) k = ix2 p k :=
    funext fun a => by match a with | ⟨0, _⟩ => rfl | ⟨1, _⟩ => rfl
  rw [hl]
  show Scalar.select (IntOp.cmpi .sge (broadcastTo S512x8192 _ _ (ix2 p k)) (broadcastTo S512x8192 _ _ (ix2 p k)))
    (broadcastTo S512x8192 _ _ (ix2 p k)) _ = _
  rw [broadcastTo_1b_ab_apply, broadcastTo_a1_ab_apply, broadcastTo_1b_ab_apply,
    shapeCast_self, shapeCast_self, shapeCast_self, shapeCast_self]
  rfl

end Cert.KernelIdeal.Hand

end
-- ==== Proof.RiskSet.lean ====
/-
  The Cox negative log partial likelihood, as two functions of the argument arrays.

  For N = 8192 subjects with risk scores `risk`, event indicators `ev` and observed times `time`:

    riskSum risk time i  =  Σ_k  [time k ≥ time i] · exp (risk k)        (the sum over subject i's risk set)
    loss                 =  −( Σ_i (risk i − log (riskSum i)) · ev i ) / (Σ_i ev i)

  `riskSum` is the only part the two programs compute differently (one in row blocks of 512, one on the whole
  8192 × 8192 mask); it is stated here index by index over the extended reals, the indicator written as the
  select between `exp (risk k)` and the zero word. Everything after it — logarithm, difference, product with the
  indicators, the two sums, the sign and the quotient — is the same chain of operations in both programs, so it is
  carried as ONE function `lossTail` of (risk, ev, the risk-set sums) and never opened: the two results are equal
  because the risk-set sums going in are equal.
-/
import Idealize.ShloMosaic.PureOps
import Idealize.ShloMosaic.PureOps.Ideal
import Idealize.ShloMosaic.PureOps.Ideal.Laws
import Idealize.ShloMosaic.Lib.ValueIdx
import Idealize.ShloMosaic.Lib.StableHlo

noncomputable section

open scoped BigOperators

namespace Cert.RiskSet

open Idealize.ShloMosaic Idealize.ShloMosaic.ValueIdx

/-- One value per subject. -/
abbrev Sn : Shape := ⟨1, ![8192]⟩
/-- A scalar. -/
abbrev S0 : Shape := ⟨0, ![]⟩

/-- The risk-set sum of subject `i`: over every subject `k`, `exp (risk k)` when `k` is still at risk at `i`'s time
    (`time k ≥ time i`, signed), zero otherwise. A plain finite sum on the extended reals: no order, no grouping. -/
def riskSum (risk : FVec Ideal Sn .f32) (time : IVec Sn 32) : FVec Ideal Sn .f32 :=
  fun i => ∑ k : Fin 8192, Scalar.select (IntOp.cmpi .sge (time (ix1 k)) (time i))
    (FloatOps.hostUnary (F := Ideal) (φ := .f32) .exp (risk (ix1 k))) (Ideal.ofBits .f32 0x00000000#32)

/-- From the risk-set sums `rs` to the loss: `−(Σ_i (risk i − log (rs i)) · ev i) / (Σ_i ev i)`, the indicator sum taken
    on the integers and converted. The shape facts are arguments, so that either program's own witnesses fit. -/
def lossTail (h0 : Sn.ReducesTo [0] S0) (hS : 0 < S0.numel)
    (risk : (⟨Sn, .f32⟩ : BufTy).Contents (Elt Ideal)) (ev : (⟨Sn, .i32⟩ : BufTy).Contents (Elt Ideal))
    (rs : (⟨Sn, .f32⟩ : BufTy).Contents (Elt Ideal)) : (⟨S0, .f32⟩ : BufTy).Contents (Elt Ideal) :=
  Host.divf (F := Ideal)
    (Host.negf (F := Ideal) (Host.reduceAdd (F := Ideal) (mulf (subf risk (Host.log (F := Ideal) rs)) (sitofp .f32 ev))
      (constant (F := Ideal) S0 .f32 0x00000000#32) h0 hS))
    (sitofp (F := Ideal) .f32 (Host.reduce IntOp.addi ev (constantI S0 32 0#32) h0 hS))

end Cert.RiskSet

end
-- ==== Proof.KernelSide.lean ====
/-
  The kernel computes the loss of RiskSet.lean.

  The region's output array [8192, 1] ends holding, at `(r, 0)`, the risk-set sum of subject `r`:
  grid point `t` writes back rows `512 t … 512 t + 511`, and row `p` of what it writes is the body's sum over `k` of
  the select on `time k ≥ time (512 t + p)` between `exp (risk k)` and zero (Payload.lean over the blocks of
  Blocks.lean) — the risk-set sum of subject `512 t + p`. Every row `r` lies in the block of point `r / 512`, so the
  sixteen blocks cover the array. The host then reshapes the column to [8192] (position `(r, 0)` ↦ `r`) and applies
  the chain of operations `lossTail` to it, the risks and the indicators as launched.
-/
import proofs.«102499_j55379308315381_1_alg».proof.Proof.Blocks
import proofs.«102499_j55379308315381_1_alg».proof.Proof.Payload
import proofs.«102499_j55379308315381_1_alg».proof.Proof.RiskSet

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.Column Cert.RiskSet

variable (m : (ℓ : Loc nD τ sig) → Buf (Elt Ideal) ℓ) (ρ : Dev nD → PrngReg)

theorem hz : (![0, 0] : Fin 2 → Nat) = fun _ => 0 := funext fun a => by fin_cases a <;> rfl

/-! ## The output column -/

/-- The risk-set sums laid out as a column: entry `(r, 0)` is subject `r`'s. -/
def colSum (risk : FVec Ideal Sn .f32) (time : IVec Sn 32) : S8192x1.Idx → EReal :=
  fun i => riskSum risk time (ix1 (⟨(i 0).val, (i 0).isLt⟩ : Fin 8192))

theorem colSum_at (risk : FVec Ideal Sn .f32) (time : IVec Sn 32) (i : S8192x1.Idx) (r : Fin 8192) (h : (i 0).val = r.val) :
    colSum risk time i = riskSum risk time (ix1 r) := by
  unfold colSum
  exact congrArg (fun r => riskSum risk time (ix1 r)) (Fin.ext h)

/-! ## What a point writes back -/

/-- Point `t` writes back block `t` of the column of risk-set sums. -/
theorem flushed_eq (c : Dev nD) (t : Fin cfg0.N) :
    (dats m 0 c).flushed 3 t = ((cfg0.win 3).blk t).view.read (Elt Ideal)
      (colSum (m ((c : Thread nD τ).loc main_arg0)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S512x1) hz, View.ld_unit_zero (S := S1x8192) hz]
  funext j
  obtain ⟨p, q, rfl⟩ : ∃ (p : Fin 512) (q : Fin 1), j = (ix2 p q : S512x1.Idx) :=
    ⟨⟨(j 0).val, (j 0).isLt⟩, ⟨(j 1).val, (j 1).isLt⟩, funext fun a => by match a with | ⟨0, _⟩ => rfl | ⟨1, _⟩ => rfl⟩
  show k0_pay1 (iblk m c 0 t) (iblk m c 1 t) (iblk m c 2 t) (ix2 p q)
    = colSum _ _ (((cfg0.win 3).blk t).view.emb (ix2 p q))
  have hN : t.val < 16 := by have := t.isLt; have h16 : cfg0.N = 16 := N_0; omega
  have hp : p.val < 512 := p.isLt
  obtain ⟨-, -, -, -, -, -, e0, e1⟩ := idx_facts t
  rw [pay_apply, colSum_at _ _ _ (⟨t.val * 512 + p.val, by omega⟩ : Fin 8192) (by
    show win0_3.index t (0 : Fin 2) * 512 + 1 * p.val = t.val * 512 + p.val
    rw [e0]; omega)]
  unfold riskSum
  refine Finset.sum_congr rfl fun k _ => ?_
  rw [iblk_row m c t k, iblk_col m c t p (⟨t.val * 512 + p.val, by omega⟩ : Fin 8192) rfl, iblk_exp m c t k]

/-! ## The blocks cover the column -/

/-- A position of the column is in point `t`'s block iff each coordinate is in the block's range on its axis. -/
theorem mem_blk (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v4).slice (win0_3.rect t)).set ↔ _
  rw [View.set_slice_whole, Rect.mem_set_unit]
  exact Iff.rfl

/-- Row `r` is written back by point `r / 512`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1 ≤ (i 1).val ∧ (i 1).val < win0_3.index t (1 : Fin 2) * 1 + 1
    rw [e1]; omega

/-! ## The array after the run, and the result -/

/-- The region's output array ends holding the column of risk-set sums. -/
theorem final (c : Dev nD) : (dats m 0 c).arrAt 3 cfg0.N
    = colSum (m ((c : Thread nD τ).loc main_arg0)) (m ((c : Thread nD τ).loc main_arg2)) :=
  (dats m 0 c).arrAt_eq_of_cover 3 _ (fun t _ => flushed_eq m c t) cover

/-- The column reshaped to [8192] is the risk-set sums. -/
theorem reshape_col (risk : FVec Ideal Sn .f32) (time : IVec Sn 32) :
    shapeCast S8192 (colSum risk time) shapeCasts_S8192x1_S8192 = riskSum risk time := by
  funext i
  obtain ⟨r, rfl⟩ : ∃ r : Fin 8192, i = ix1 r := ⟨i 0, eq_ix1 i⟩
  exact (shapeCast_a1_a_apply _ _ r).trans (colSum_at _ _ _ r rfl)

/-- The program's result: the host chain after the region, applied to the launched risks and indicators and to the
    region's output, is the loss. -/
theorem result (c : Dev nD) :
    (Pipeline.afterTail₀ cfgs (dats m) 0 (V0 m) [hostOps1] c main_v14 : S_.Idx → EReal)
      = lossTail reducesTo_S8192_S_d0 h_S_ (m ((c : Thread nD τ).loc main_arg0)) (m ((c : Thread nD τ).loc main_arg1))
          (riskSum (m ((c : Thread nD τ).loc main_arg0)) (m ((c : Thread nD τ).loc main_arg2))) := by
  unfold Pipeline.afterTail₀
  show StableHlo.after hostOps1 _ (Proc.devRef .tc main_v14) = _
  after_results
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e4 : Pipeline.withArrays (cfgs 0).spec c (V0 m c) (fun w => (dats m 0 c).arrAt w (cfgs 0).N) (Proc.devRef .tc main_v4)
      = colSum (m ((c : Thread nD τ).loc main_arg0)) (m ((c : Thread nD τ).loc main_arg2)) :=
    (Pipeline.withArrays_arr spec0 launch0.win.arr_inj c _ _ 3).trans (final m c)
  rw [e0, e1, e4]
  show lossTail reducesTo_S8192_S_d0 h_S_ _ _ (shapeCast S8192 (colSum _ _) shapeCasts_S8192x1_S8192) = _
  rw [reshape_col]

/-- Every weakly fair execution of the kernel's program terminates with the result at the loss of the launched
    arguments, and the arguments unchanged. -/
theorem run : θ_run defs (onTc (τ := τ) (main (F := Ideal))) ⟨m, fun _ => 0, ρ⟩ fun r => ∀ c : Dev nD,
      r.2.mem ((c.tc : Thread nD τ).loc main_v14)
        = lossTail reducesTo_S8192_S_d0 h_S_ (m ((c : Thread nD τ).loc main_arg0)) (m ((c : Thread nD τ).loc main_arg1))
            (riskSum (m ((c : Thread nD τ).loc main_arg0)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v14 (Pipeline.mem_restRefs_of main_v14 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Hand

end
-- ==== Proof.RefSide.lean ====
/-
  The reference computes the loss of RiskSet.lean.

  Its row sum over the 8192 × 8192 mask, read at subject `i`, is the zero word plus the sum over `k` of the select
  between `exp (risk k)` and zero on `time k ≥ time i`: each broadcast only renames an index (row `i`, column `k`
  of the mask read `time k` against `time i`, and column `k` of the broadcast exponentials), and the zero word is
  the real 0, the unit of addition. So the row sums are `riskSum`, and the rest of the program is `lossTail`.
-/
import proofs.«102499_j55379308315381_1_alg».proof.Proof.Gen.ReferenceIdeal.Read
import proofs.«102499_j55379308315381_1_alg».proof.Proof.RiskSet

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RiskSet

/-- Column `k` of row `i` of the mask's first operand reads `time k`. -/
theorem idx_col (i : S8192.Idx) (k : Fin 8192) : idx_main_v1 (idx_main_v3 (idx_main_v8 i k)) = ix1 k :=
  funext fun a => by match a with | ⟨0, _⟩ => rfl

/-- Row `i` of the mask's second operand reads `time i`. -/
theorem idx_row (i : S8192.Idx) (k : Fin 8192) : idx_main_v2 (idx_main_v4 (idx_main_v8 i k)) = i :=
  funext fun a => by match a with | ⟨0, _⟩ => rfl

/-- Column `k` of the broadcast exponentials reads `exp (risk k)`. -/
theorem idx_exp (i : S8192.Idx) (k : Fin 8192) : idx_main_v6 (idx_main_call0_v0 (idx_main_v8 i k)) = ix1 k :=
  funext fun a => by match a with | ⟨0, _⟩ => rfl

/-- The reference's row sums are the risk-set sums. -/
theorem rowSum_eq (x0 : (⟨S8192, .f32⟩ : BufTy).Contents (Elt Ideal)) (x2 : (⟨S8192, .i32⟩ : BufTy).Contents (Elt Ideal)) :
    val_main_v8 (F := Ideal) x0 x2 = riskSum x0 x2 := by
  funext i
  rw [val_main_v8_apply, val_main_cst_0_apply]
  unfold riskSum
  refine (congrArg (· + _) Ideal.ofBits_zero_f32).trans ?_
  rw [zero_add]
  refine Finset.sum_congr rfl fun k _ => ?_
  rw [val_main_v7_apply, val_main_v5_apply, val_main_v3_apply, val_main_v1_apply, val_main_v4_apply, val_main_v2_apply,
    val_main_call0_v0_apply, val_main_v6_apply, val_main_v0_apply, val_main_call0_v1_apply, val_main_cst_apply,
    idx_col, idx_row, idx_exp]
  rfl

/-- The reference's result is the loss of its arguments. -/
theorem result_eq (x0 : (⟨S8192, .f32⟩ : BufTy).Contents (Elt Ideal)) (x1 x2 : (⟨S8192, .i32⟩ : BufTy).Contents (Elt Ideal)) :
    val_main_v17 (F := Ideal) x0 x1 x2 = lossTail reducesTo_S8192_S_d0 h_S_ x0 x1 (riskSum x0 x2) := by
  rw [← rowSum_eq]
  rfl

end Cert.ReferenceIdeal.RefValue

end
-- ==== Proof.lean ====
/-
  The Cox negative log partial likelihood: a kernel that forms the risk-set sums in sixteen row blocks of 512 against the
  reference that forms them on the whole 8192 × 8192 mask.

  Both programs compute, for risks `risk`, indicators `ev` and times `time`,

    loss = −( Σ_i (risk i − log (Σ_k [time k ≥ time i] · exp (risk k))) · ev i ) / (Σ_i ev i),

  and differ only in how the inner sum is laid out: the kernel's lane sum of a row of a block and the reference's sum along
  the mask's second axis are, on the extended reals, the same finite sum of the same terms (addition there is commutative
  and associative, so neither order nor tiling matters, and the zero each starts from is the real 0). No finiteness of the
  inputs is used. What follows the inner sum is one chain of operations shared by both programs and is never opened.

  The three frames: the two kernels' are their runs with the results dropped; the reference's is its run with the result
  dropped. The idealization rewrote nothing, so there is nothing to preserve. The algebraic claim: both runs end at
  `lossTail risk ev (riskSum risk time)` of arguments that agree.
-/
import proofs.«102499_j55379308315381_1_alg».proof.Defs
import proofs.«102499_j55379308315381_1_alg».proof.Proof.Gen.Kernel
import proofs.«102499_j55379308315381_1_alg».proof.Proof.Gen.Kernel.Skeleton
import proofs.«102499_j55379308315381_1_alg».proof.Proof.Gen.Kernel.Launch
import proofs.«102499_j55379308315381_1_alg».proof.Proof.Gen.Kernel.Points
import proofs.«102499_j55379308315381_1_alg».proof.Proof.Gen.Kernel.Frame
import proofs.«102499_j55379308315381_1_alg».proof.Proof.Gen.KernelIdeal
import proofs.«102499_j55379308315381_1_alg».proof.Proof.Gen.KernelIdeal.Skeleton
import proofs.«102499_j55379308315381_1_alg».proof.Proof.Gen.KernelIdeal.Launch
import proofs.«102499_j55379308315381_1_alg».proof.Proof.Gen.KernelIdeal.Points
import proofs.«102499_j55379308315381_1_alg».proof.Proof.Gen.KernelIdeal.Frame
import proofs.«102499_j55379308315381_1_alg».proof.Proof.Gen.ReferenceIdeal
import proofs.«102499_j55379308315381_1_alg».proof.Proof.Gen.ReferenceIdeal.Run
import proofs.«102499_j55379308315381_1_alg».proof.Proof.Gen.ReferenceIdeal.Read
import proofs.«102499_j55379308315381_1_alg».proof.Proof.Gen.Pre_finite_inputs
import Idealize.ShloMosaic.Adequacy
import Idealize.ShloMosaic.Init

import proofs.«102499_j55379308315381_1_alg».proof.Proof.KernelSide
import proofs.«102499_j55379308315381_1_alg».proof.Proof.RefSide

noncomputable section

namespace Cert.Proof

open Idealize.ShloMosaic Idealize.SL.Sem Cert.RiskSet

/-- The kernel as printed runs and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end at the loss of those arguments: the kernel's run by the blocks of its
    output column, the reference's by its row sums, each followed by the shared chain. -/
theorem algebraic : Cert.algebraic_KernelIdeal_ReferenceIdeal := by
  intro m ρ m' ρ' _ hagree
  refine ⟨fun c => lossTail Cert.KernelIdeal.Facts₀.reducesTo_S8192_S_d0 Cert.KernelIdeal.Facts₀.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (riskSum (m ((c.tc : Thread Cert.KernelIdeal.nD Cert.KernelIdeal.τ).loc Cert.KernelIdeal.main_arg0))
        (m ((c.tc : Thread Cert.KernelIdeal.nD Cert.KernelIdeal.τ).loc Cert.KernelIdeal.main_arg2))),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
